-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S2000x512 : Shape := ⟨2, ![2000, 512]⟩
abbrev S2000x16 : Shape := ⟨2, ![2000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S10000x16 : Shape := ⟨2, ![10000, 16]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 127
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000x16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x40, .f32⟩
  | .hbm, ⟨67, _⟩ => ⟨S100000, .i32⟩
  | .hbm, ⟨68, _⟩ => ⟨S1x3200000, .i32⟩
  | .hbm, ⟨69, _⟩ => ⟨S3200000, .i32⟩
  | .hbm, ⟨70, _⟩ => ⟨S3300000, .i32⟩
  | .hbm, ⟨71, _⟩ => ⟨S1x3200000, .i32⟩
  | .hbm, ⟨72, _⟩ => ⟨S3200000, .i32⟩
  | .hbm, ⟨73, _⟩ => ⟨S3300000, .i32⟩
  | .hbm, ⟨74, _⟩ => ⟨S_, .f32⟩
  | .hbm, ⟨75, _⟩ => ⟨S3300000, .f32⟩
  | .hbm, ⟨76, _⟩ => ⟨S_, .f32⟩
  | .hbm, ⟨77, _⟩ => ⟨S100000, .f32⟩
  | .hbm, ⟨78, _⟩ => ⟨S3300000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S3300000, .i32⟩
  | .hbm, ⟨90, _⟩ => ⟨S3300000, .i1⟩
  | .hbm, ⟨91, _⟩ => ⟨S_, .i32⟩
  | .hbm, ⟨92, _⟩ => ⟨S3300000, .i32⟩
  | .hbm, ⟨93, _⟩ => ⟨S3300000, .i32⟩
  | .hbm, ⟨94, _⟩ => ⟨S3300000, .i32⟩
  | .hbm, ⟨95, _⟩ => ⟨S3300000x1, .i32⟩
  | .hbm, ⟨96, _⟩ => ⟨S3300000, .f32⟩
  | .hbm, ⟨97, _⟩ => ⟨S_, .i32⟩
  | .hbm, ⟨98, _⟩ => ⟨S3300000, .i32⟩
  | .hbm, ⟨99, _⟩ => ⟨S3300000, .i1⟩
  | .hbm, ⟨100, _⟩ => ⟨S_, .i32⟩
  | .hbm, ⟨101, _⟩ => ⟨S3300000, .i32⟩
  | .hbm, ⟨102, _⟩ => ⟨S3300000, .i32⟩
  | .hbm, ⟨103, _⟩ => ⟨S3300000, .i32⟩
  | .hbm, ⟨104, _⟩ => ⟨S3300000x1, .i32⟩
  | .hbm, ⟨105, _⟩ => ⟨S3300000, .f32⟩
  | .hbm, ⟨106, _⟩ => ⟨S3300000, .f32⟩
  | .hbm, ⟨107, _⟩ => ⟨S_, .i32⟩
  | .hbm, ⟨108, _⟩ => ⟨S3300000, .i32⟩
  | .hbm, ⟨109, _⟩ => ⟨S3300000, .i1⟩
  | .hbm, ⟨110, _⟩ => ⟨S_, .i32⟩
  | .hbm, ⟨111, _⟩ => ⟨S3300000, .i32⟩
  | .hbm, ⟨112, _⟩ => ⟨S3300000, .i32⟩
  | .hbm, ⟨113, _⟩ => ⟨S3300000, .i32⟩
  | .hbm, ⟨114, _⟩ => ⟨S3300000x1, .i32⟩
  | .hbm, ⟨115, _⟩ => ⟨S3300000x40, .f32⟩
  | .hbm, ⟨116, _⟩ => ⟨S3300000x1, .f32⟩
  | .hbm, ⟨117, _⟩ => ⟨S3300000x40, .f32⟩
  | .hbm, ⟨118, _⟩ => ⟨S3300000x40, .f32⟩
  | .hbm, ⟨119, _⟩ => ⟨S_, .f32⟩
  | .hbm, ⟨120, _⟩ => ⟨S100000x40, .f32⟩
  | .hbm, ⟨121, _⟩ => ⟨S3300000x1, .i32⟩
  | .hbm, ⟨122, _⟩ => ⟨S100000x40, .f32⟩
  | .hbm, ⟨123, _⟩ => ⟨S1x40, .f32⟩
  | .hbm, ⟨124, _⟩ => ⟨S100000x40, .f32⟩
  | .hbm, ⟨125, _⟩ => ⟨S100000x40, .f32⟩
  | .hbm, ⟨126, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S16x40, .f32⟩
  | .local _ .vmem, ⟨8, _⟩ => ⟨S10000x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  dot_S2000x512_S512x16_S2000x16_1_0_0_1_n_n_wf : DotDims.WF S2000x512 S512x16 S2000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S100000x40.size a
  hwx2_1 : ∀ i : grid2.Coords, EltTy.bits .f32 = 32 ∨ (Rect.block (s := S100000x40) S10000x40.size (cc2_transform_1 i) (hinb2_1 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S10000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The kernel's program run from launch to return, with its result named.

  The program is three launches among stretches of host lines. Its run ends with every buffer that outlives a launch
  at the contents the last segment boundary records: the fold of the host lines and of the launches' write-backs from
  the launch memory. The frame states this for the six argument arrays only; here the same run is read once more at
  the result buffer as well, so that the result is named as the last boundary's contents of that buffer.
-/
import proofs.«132463_j11776800326010_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents of that buffer, and the six argument arrays are as launched. -/
theorem run_named : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.KernelTerm.lean ====
/-
  The two aggregation layers between the kernel's three launches, as the host lines spell them.

  Between its launches the kernel's program runs, on the host, the normalised aggregation over the edge list extended
  by self-loops — the same lines as the reference's. The two layers are named here as functions of the features they
  aggregate, the edge list and the bias.
-/
import proofs.«132463_j11776800326010_1_alg».proof.Proof.Gen.KernelIdeal

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable {F : FTy → Type} [FloatOps F]

/-- One graph-convolution aggregate over 16 feature columns, as the host lines spell it. With `src`/`dst` the edge
    list followed by one self-loop per node, `deg[n] = #{e : dst e = n}` and `d = where(deg > 0, rsqrt deg, 0)`:
    row `n` of the result is `(∑ e with dst e = n, h[src e] · (d[src e] · d[dst e])) + b`. -/
def layer1 (h : (⟨S100000x16, .f32⟩ : BufTy).Contents (Elt F)) (ei : (⟨S2x3200000, .i32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 h (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0))))))))) (broadcastInDim S100000x16 ![0, 1] bcast_S1x16_S100000x16_0_1 (broadcastInDim S1x16 ![1] bcast_S16_S1x16_1 b))

/-- The same aggregate over 40 feature columns. -/
def layer2 (h : (⟨S100000x40, .f32⟩ : BufTy).Contents (Elt F)) (ei : (⟨S2x3200000, .i32⟩ : BufTy).Contents (Elt F)) (b : (⟨S40, .f32⟩ : BufTy).Contents (Elt F)) :
    (⟨S100000x40, .f32⟩ : BufTy).Contents (Elt F) :=
  addf (Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (mulf (Host.gather gather_S100000x40_S3300000x1_S3300000x40_1_0_n_n_0_1_140 h (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (broadcastInDim S3300000x40 ![0, 1] bcast_S3300000x1_S3300000x40_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0))))))))) (broadcastInDim S100000x40 ![0, 1] bcast_S1x40_S100000x40_0_1 (broadcastInDim S1x40 ![1] bcast_S40_S1x40_1 b))

end Cert.KernelIdeal.Layers

end
-- ==== Proof.LibConcatPair.lean ====
/-
  A concatenation of two arrays with each operand as a plain argument, and the fold of a line of host operations read
  through it.

  `concatenate t ax [⟨A, a⟩, ⟨B, b⟩] h` takes its operands inside a list of (shape, contents) pairs; rewriting does not
  reach the contents there. `concat2 t ax A B a b h` is the same array with `a` and `b` as arguments of their own, so a
  rewrite of an operand's contents goes through. `after_results_pairs` reads what one buffer holds after a literal line
  of host operations (the library's one-pass reading of such a line) with every two-operand concatenation first put in
  that form, so that the operands' own contents are read as well; `concat2` unfolds back by `rfl`.
-/
import Idealize.ShloMosaic.Lib.StableHlo.Run

namespace Cert.ConcatPair

open Idealize.ShloMosaic

variable {α : Type}

/-- The concatenation of two arrays along axis `ax` of the result shape `t`. -/
def concat2 (t : Shape) (ax : Fin t.rank) (A B : Shape) (a : A.Idx → α) (b : B.Idx → α)
    (h : Shape.Concatenates [A, B] t ax) : t.Idx → α :=
  concatenate t ax [⟨A, a⟩, ⟨B, b⟩] h

theorem concat2_intro (t : Shape) (ax : Fin t.rank) (A B : Shape) (a : A.Idx → α) (b : B.Idx → α)
    (h : Shape.Concatenates [A, B] t ax) :
    concatenate t ax [⟨A, a⟩, ⟨B, b⟩] h = concat2 t ax A B a b h := rfl

end Cert.ConcatPair

namespace Idealize.ShloMosaic.StableHlo

/-- What one buffer holds after a literal line of host operations, two-operand concatenations included. -/
macro "after_results_pairs" : tactic =>
  `(tactic| (simp (disch := decide) only [Cert.ConcatPair.concat2_intro, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KernelHost.lean ====
/-
  The host lines between the kernel's launches, read at the buffers the next launch takes.

  From any contents `V` of the core's buffers, the lines after the first launch leave the first aggregation layer of
  the first launch's output in the buffer the second launch reads, and touch no argument array; the lines after the
  second launch leave the second aggregation layer of the second launch's output in the buffer the third launch reads.
  Each statement is the fold of the lines, read at one buffer.
-/
import proofs.«132463_j11776800326010_1_alg».proof.Proof.Gen.KernelIdeal.Launch
import proofs.«132463_j11776800326010_1_alg».proof.Proof.KernelTerm
import proofs.«132463_j11776800326010_1_alg».proof.Proof.LibConcatPair

set_option maxRecDepth 16384

noncomputable section

namespace Cert.KernelIdeal.Layers

open Cert.KernelIdeal Cert.KernelIdeal.Gen Idealize.ShloMosaic Idealize.ShloMosaic.TcCoe Idealize.SL.Sem Idealize.ShloMosaic.StableHlo

variable {F : FTy → Type} [FloatOps F]

set_option maxHeartbeats 8000000 in
/-- After the first stretch the second launch's input holds the first aggregation layer of the first launch's output. -/
theorem stretch1_v46 (V : Valuation τ sig (Elt F)) :
    (after hostOps1_2 (after hostOps1_1 (after hostOps1 V)) (Proc.devRef .tc main_v46) : (⟨S100000x16, .f32⟩ : BufTy).Contents (Elt F))
      = layer1 (V (Proc.devRef .tc main_v0)) (V (Proc.devRef .tc main_arg1)) (V (Proc.devRef .tc main_arg3)) := by
  unfold layer1
  after_results_pairs <;> rfl

set_option maxHeartbeats 8000000 in
/-- The first stretch writes no argument array. -/
theorem stretch1_arg1 (V : Valuation τ sig (Elt F)) :
    after hostOps1_2 (after hostOps1_1 (after hostOps1 V)) (Proc.devRef .tc main_arg1) = V (Proc.devRef .tc main_arg1) := by
  after_results_pairs <;> rfl

set_option maxHeartbeats 8000000 in
theorem stretch1_arg4 (V : Valuation τ sig (Elt F)) :
    after hostOps1_2 (after hostOps1_1 (after hostOps1 V)) (Proc.devRef .tc main_arg4) = V (Proc.devRef .tc main_arg4) := by
  after_results_pairs <;> rfl

set_option maxHeartbeats 8000000 in
theorem stretch1_arg5 (V : Valuation τ sig (Elt F)) :
    after hostOps1_2 (after hostOps1_1 (after hostOps1 V)) (Proc.devRef .tc main_arg5) = V (Proc.devRef .tc main_arg5) := by
  after_results_pairs <;> rfl

set_option maxHeartbeats 8000000 in
/-- After the second stretch the third launch's input holds the second aggregation layer of the second launch's output. -/
theorem stretch2_v93 (V : Valuation τ sig (Elt F)) :
    (after hostOps2_2 (after hostOps2_1 (after hostOps2 V)) (Proc.devRef .tc main_v93) : (⟨S100000x40, .f32⟩ : BufTy).Contents (Elt F))
      = layer2 (V (Proc.devRef .tc main_v47)) (V (Proc.devRef .tc main_arg1)) (V (Proc.devRef .tc main_arg5)) := by
  unfold layer2
  after_results_pairs <;> rfl

end Cert.KernelIdeal.Layers

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«132463_j11776800326010_1_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.LibRowMaps.lean ====
/-
  Row maps over the extended reals: arrays whose every row is a function of the matching row of an operand.

  `mapRows f A` is the `[a, J]` array whose row `r` is `f` of row `r` of the `[a, K]` array `A`. An array is
  `mapRows f A` as soon as each of its rows is `f` of the matching row of `A` (`eq_mapRows`), whatever the number
  of rows — so one row fact serves a block of rows and the whole array; and `mapRows f A` read at an index whose row
  is `r` needs only a row that agrees with row `r` of `A` (`mapRows_apply_of_row`): that is all a row-tiled evaluation
  of a node-wise layer needs. Three row functions of layered networks are named: the projection of a row by a weight
  matrix, `j ↦ ∑ k, h k · w[k, j]`; the shifted rectifier, `j ↦ max (h j + b j) z`; and the logistic score,
  `j ↦ logistic ((∑ k, h k · w[k, j]) + b j)`. Equal operands give equal row maps (the `_congr` lemmas), and the one
  row of a vector viewed as a `[1, J]` array is the vector (`rowOf_vector_as_row`). Rows and the array operations
  read on a row are LibRowLayers.lean's.
-/
import proofs.«132463_j11776800326010_1_alg».proof.Proof.LibRowLayers

noncomputable section

namespace Cert.Layers

open Idealize.ShloMosaic Idealize.ShloMosaic.ValueIdx Cert.RowLayers

/-- The array whose row `r` is `f` of row `r` of `A`. -/
def mapRows {a K J : ℕ} (f : (Fin K → EReal) → Fin J → EReal) (A : (⟨2, ![a, K]⟩ : Shape).Idx → EReal) :
    (⟨2, ![a, J]⟩ : Shape).Idx → EReal :=
  fun i => f (rowOf A (i 0)) (i 1)

theorem mapRows_ix2 {a K J : ℕ} (f : (Fin K → EReal) → Fin J → EReal) (A : (⟨2, ![a, K]⟩ : Shape).Idx → EReal)
    (r : Fin a) (q : Fin J) : mapRows f A (ix2 r q) = f (rowOf A r) q := rfl

/-- An array each of whose rows is `f` of the matching row of `A` is `mapRows f A`. -/
theorem eq_mapRows {a K J : ℕ} (f : (Fin K → EReal) → Fin J → EReal) (A : (⟨2, ![a, K]⟩ : Shape).Idx → EReal)
    (X : (⟨2, ![a, J]⟩ : Shape).Idx → EReal) (h : ∀ p : Fin a, rowOf X p = f (rowOf A p)) : X = mapRows f A :=
  funext fun i => (apply_eq_rowOf X i).trans (congrFun (h (i 0)) (i 1))

/-- `mapRows f A` at an index whose row coordinate is `r` and whose column coordinate is `q`, given a row `h`
    that agrees with row `r` of `A`. -/
theorem mapRows_apply_of_row {a K J : ℕ} (f : (Fin K → EReal) → Fin J → EReal) (A : (⟨2, ![a, K]⟩ : Shape).Idx → EReal)
    (i : (⟨2, ![a, J]⟩ : Shape).Idx) (r : Fin a) (q : Fin J) (hi : i = ix2 r q) (h : Fin K → EReal)
    (hrow : ∀ k : Fin K, h k = A (ix2 r k)) : f h q = mapRows f A i := by
  subst hi
  rw [mapRows_ix2]
  exact congrArg (fun g => f g q) (funext hrow)

/-- The projection of a row by a weight matrix: `j ↦ ∑ k, h k · w[k, j]`. -/
def project {K J : ℕ} (w : (⟨2, ![K, J]⟩ : Shape).Idx → EReal) (h : Fin K → EReal) : Fin J → EReal :=
  fun j => ∑ k : Fin K, h k * w (ix2 k j)

/-- The shifted rectifier of a row: `j ↦ max (h j + b j) z`. -/
def shiftRelu {J : ℕ} (z : EReal) (b : Fin J → EReal) (h : Fin J → EReal) : Fin J → EReal :=
  relu z (fun j => h j + b j)

/-- The scoring head on a row: `j ↦ logistic ((∑ k, h k · w[k, j]) + b j)`. -/
def score {K J : ℕ} (w : (⟨2, ![K, J]⟩ : Shape).Idx → EReal) (b : Fin J → EReal) (h : Fin K → EReal) :
    Fin J → EReal :=
  fun j => Ideal.logistic (project w h j + b j)

/-! ## Equal operands give equal layers -/

theorem mapRows_project_congr {a K J : ℕ} {w w' : (⟨2, ![K, J]⟩ : Shape).Idx → EReal} {A A' : (⟨2, ![a, K]⟩ : Shape).Idx → EReal}
    (hw : w = w') (hA : A = A') : mapRows (project w) A = mapRows (project w') A' := by
  subst hw; subst hA; rfl

theorem mapRows_shiftRelu_congr {a J : ℕ} (z : EReal) {b b' : Fin J → EReal} {A A' : (⟨2, ![a, J]⟩ : Shape).Idx → EReal}
    (hb : b = b') (hA : A = A') : mapRows (shiftRelu z b) A = mapRows (shiftRelu z b') A' := by
  subst hb; subst hA; rfl

theorem mapRows_score_congr {a K J : ℕ} {w w' : (⟨2, ![K, J]⟩ : Shape).Idx → EReal} {b b' : Fin J → EReal}
    {A A' : (⟨2, ![a, K]⟩ : Shape).Idx → EReal} (hw : w = w') (hb : b = b') (hA : A = A') :
    mapRows (score w b) A = mapRows (score w' b') A' := by
  subst hw; subst hb; subst hA; rfl

/-- The one row of a vector viewed as a `[1, J]` array is the vector, entry by entry. -/
theorem rowOf_vector_as_row {J : ℕ} (x : (⟨1, ![J]⟩ : Shape).Idx → EReal) (h : (⟨1, ![J]⟩ : Shape).ShapeCasts ⟨2, ![1, J]⟩) :
    rowOf (a := 1) (b := J) (shapeCast ⟨2, ![1, J]⟩ x h) 0 = fun j => x (ix1 j) :=
  funext fun j => shapeCast_a_1a_apply x h 0 j

end Cert.Layers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«132463_j11776800326010_1_alg».proof.Proof.LibRowLayers
import proofs.«132463_j11776800326010_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLogSoftmaxRows.lean ====
/-
  A row-wise log-softmax as each program prints it, read at an entry.

  Both programs shift an `[a, n]` array of logits by its row maxima, exponentiate, sum each row, take the logarithm and
  subtract: entry `(p, j)` of the result is `logSoftmax` of row `p` at `j`. The device reduces along the lanes from an
  accumulator, re-lays the `[a]` result as an `[a, 1]` column and broadcasts it back; the host reduces from an initial
  value, takes the maximum with a splat of that same value once more (which changes nothing: the fold already starts
  there), gives the result a trailing unit axis and broadcasts it back; its sum starts from the zero word, which is the
  extended real `0`. The shifted array and the two per-row terms are named once (`logSoftmax_of_parts`), and each
  program's spelling of them is read into that form.
-/
import proofs.«132463_j11776800326010_1_alg».proof.Proof.LibChebRows

noncomputable section

namespace Cert.ChebRows

open Idealize.ShloMosaic Idealize.ShloMosaic.ValueIdx Cert.RowLayers

variable {a n : ℕ}

/-- If `Mx` holds, all along row `q`, that row's maximum of `L`, and `Sx` the logarithm of the row's sum of
    exponentials of the shifted entries, then `(L − Mx) − Sx` is the log-softmax of `L`'s rows. -/
theorem logSoftmax_of_parts (z : EReal) (L Mx Sx : FVec Ideal ⟨2, ![a, n]⟩ .f32)
    (hMx : ∀ (q : Fin a) (k : Fin n), Mx (ix2 q k) = rowMax z (rowOf L q))
    (hSx : ∀ (q : Fin a) (k : Fin n), Sx (ix2 q k) = Ideal.log (∑ k' : Fin n, Ideal.exp (L (ix2 q k') - rowMax z (rowOf L q))))
    (p : Fin a) (j : Fin n) : subf (subf L Mx) Sx (ix2 p j) = logSoftmax z (rowOf L p) j := by
  show (L (ix2 p j) - Mx (ix2 p j)) - Sx (ix2 p j) = _
  rw [hMx, hSx]
  rfl

/-- The device's spelling. -/
theorem logSoftmax_device_apply (L : FVec Ideal ⟨2, ![a, n]⟩ .f32) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    subf (subf L (broadcastTo ⟨2, ![a, n]⟩ (shapeCast ⟨2, ![a, 1]⟩ (multiReduction .maximumf [1] ⟨1, ![a]⟩ L accM hr hφ hM) hc) hb))
         (broadcastTo ⟨2, ![a, n]⟩ (log (shapeCast ⟨2, ![a, 1]⟩ (multiReduction .add [1] ⟨1, ![a]⟩
             (exp (subf L (broadcastTo ⟨2, ![a, n]⟩ (shapeCast ⟨2, ![a, 1]⟩ (multiReduction .maximumf [1] ⟨1, ![a]⟩ L accM hr hφ hM) hc) hb)))
             acc0 hr hφ h0) hc)) hb) (ix2 p j)
      = logSoftmax (Ideal.ofBits .f32 accM) (rowOf L p) j := by
  have hMx : ∀ (q : Fin a) (k : Fin n),
      broadcastTo ⟨2, ![a, n]⟩ (shapeCast ⟨2, ![a, 1]⟩ (multiReduction .maximumf [1] ⟨1, ![a]⟩ L accM hr hφ hM) hc) hb (ix2 q k)
        = rowMax (Ideal.ofBits .f32 accM) (rowOf L q) := fun q k =>
    (column_device_apply _ hc hb q k).trans (multiReduction_max_row L accM hr hφ hM q)
  refine logSoftmax_of_parts _ L _ _ hMx (fun q k => ?_) p j
  refine (Cert.ColumnBroadcast.broadcastTo_a1_ab_apply _ hb q k).trans ?_
  show Ideal.log (shapeCast ⟨2, ![a, 1]⟩ _ hc (ix2 q (0 : Fin 1))) = _
  rw [shapeCast_a_a1_apply, multiReduction_add_row]
  refine congrArg Ideal.log (Finset.sum_congr rfl fun k' _ => ?_)
  show Ideal.exp (L (ix2 q k') - _) = _
  rw [hMx]

/-- The host's spelling. -/
theorem logSoftmax_host_apply (L : FVec Ideal ⟨2, ![a, n]⟩ .f32) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    subf (subf L (broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf L (broadcastInDim ⟨2, ![a, n]⟩ ![0, 1] h2 (broadcastInDim ⟨2, ![a, 1]⟩ ![0] h1
                (maximumf (broadcastInDim ⟨1, ![a]⟩ ![] hs (constant (F := Ideal) ⟨0, ![]⟩ .f32 wM))
                  (Host.reduce FloatOps.maximumf L (constant (F := Ideal) ⟨0, ![]⟩ .f32 wM) h' hu))))))
              (constant (F := Ideal) ⟨0, ![]⟩ .f32 0x00000000#32) h' hu)))) (ix2 p j)
      = logSoftmax (Ideal.ofBits .f32 wM) (rowOf L p) j := by
  have hMx : ∀ (q : Fin a) (k : Fin n),
      broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu))) (ix2 q k)
        = rowMax (Ideal.ofBits .f32 wM) (rowOf L q) := fun q k => by
    rw [lanes_host_apply, column_host_apply]
    show max (broadcastInDim ⟨1, ![a]⟩ ![] hs (constant (F := Ideal) ⟨0, ![]⟩ .f32 wM) (ix1 q))
        (Host.reduce FloatOps.maximumf L (constant (F := Ideal) ⟨0, ![]⟩ .f32 wM) h' hu (ix1 q)) = _
    rw [hostReduce_max_row L _ h' hr hu q,
      broadcastInDim_apply ![] hs (constant (F := Ideal) ⟨0, ![]⟩ .f32 wM) (ix1 q) ix0 (fun ax => ax.elim0)]
    exact max_rowMax _ _
  refine logSoftmax_of_parts _ L _ _ hMx (fun q k => ?_) p j
  rw [lanes_host_apply]
  refine (congrArg Ideal.log (column_host_apply _ h1 q (0 : Fin 1))).trans ?_
  rw [hostReduceAdd_row _ _ h' hr hu q]
  show Ideal.log (Ideal.ofBits .f32 0x00000000#32 + _) = _
  rw [Ideal.ofBits_zero_f32, zero_add]
  refine congrArg Ideal.log (Finset.sum_congr rfl fun k' _ => ?_)
  show Ideal.exp (L (ix2 q k') - _) = _
  rw [hMx]

end Cert.ChebRows

end
-- ==== Proof.LibShiftedRows.lean ====
/-
  Layers that add a bias row to a row BEFORE they act on it, over the extended reals.

  Two node-wise layers of a graph network take a row `h` of their input, move it by a bias row `b` entry by entry, and
  only then act: a projection, `j ↦ ∑ k, (h k + b k) · w[k, j]`, and a log-softmax of `h + b`. This file names the
  shifted row and those two row functions, and reads the array programs that compute them — for ANY number of rows, so
  that one statement serves a tile of rows and the whole array — as row maps (`mapRows`): the device's spellings (operands
  re-laid to their own shape, a `[1, K]` bias broadcast down the rows, a change of float format before a product into a
  zero accumulator; lane reductions re-laid as a column and broadcast back) and the host's (a `[K]` bias given a unit
  axis and broadcast, a `dot_general`; reductions from an initial value broadcast back through a unit column). A change
  of float format is the identity on extended reals, and no entry is asked to be finite: each side is the same sum and
  the same fold term by term. Also: dimension numbers `[1], [0], [0], [1]` with no batch axes say "rows times columns".
-/
import proofs.«132463_j11776800326010_1_alg».proof.Proof.LibRowMaps
import proofs.«132463_j11776800326010_1_alg».proof.Proof.LibLogSoftmaxRows

noncomputable section

namespace Cert.ShiftedRows

open Idealize.ShloMosaic Idealize.ShloMosaic.ValueIdx Cert.RowLayers Cert.Layers Cert.ChebRows

/-! ## The row functions -/

/-- A row moved by a bias row: entry `k` is `h k + b k`. -/
def shift {K : ℕ} (b h : Fin K → EReal) : Fin K → EReal := fun k => h k + b k

/-- The projection of the shifted row: `j ↦ ∑ k, (h k + b k) · w[k, j]`. -/
def shiftProject {K J : ℕ} (w : (⟨2, ![K, J]⟩ : Shape).Idx → EReal) (b h : Fin K → EReal) : Fin J → EReal :=
  project w (shift b h)

/-- The log-softmax of the shifted row, its maximum folded from `z`. -/
def shiftLogSoftmax {n : ℕ} (z : EReal) (b h : Fin n → EReal) : Fin n → EReal := logSoftmax z (shift b h)

/-! ## Dimension numbers that say "rows times columns" -/

/-- An `[a, K] × [K, b] → [a, b]` product that contracts the left operand's axis 1 with the right operand's axis 0,
    keeps the left axis 0 and the right axis 1 and has no batch axes, reads (row, k) on the left and (k, column) on the
    right. -/
theorem rowsTimesCols_of_lists {a K b : ℕ} (d : DotDims ⟨2, ![a, K]⟩ ⟨2, ![K, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = []) : RowsTimesCols d := by
  obtain ⟨lc, rc, ln, rn, lb, rb, wf⟩ := d
  dsimp only at h1 h2 h3 h4 h5 h6
  subst h1 h2 h3 h4 h5 h6
  exact
    { rank := rfl
      size := rfl
      lhs0 := fun j q => by
        unfold DotDims.lhsIdx
        rw [dif_neg List.not_mem_nil, dif_pos (List.mem_singleton.mpr rfl)]
        rfl
      lhs1 := fun j q => DotDims.lhsIdx_val_of_single _ rfl j q
      rhs0 := fun j q => DotDims.rhsIdx_val_of_single _ rfl j q
      rhs1 := fun j q => by
        unfold DotDims.rhsIdx
        rw [dif_neg List.not_mem_nil, dif_pos (List.mem_singleton.mpr rfl)]
        rfl }

/-! ## The shifted row, as each program forms it -/

section Shift
variable {a K : ℕ}

/-- The device's sum of an array and a `[1, K]` bias row broadcast down the rows: row `p` is row `p` shifted by the
    bias row. -/
theorem rowOf_shift_device (x : FVec Ideal ⟨2, ![a, K]⟩ .f32) (bias : FVec Ideal ⟨2, ![1, K]⟩ .f32)
    (hB : (⟨2, ![1, K]⟩ : Shape).Broadcasts ⟨2, ![a, K]⟩) (p : Fin a) :
    rowOf (addf x (broadcastTo ⟨2, ![a, K]⟩ bias hB)) p = shift (rowOf bias 0) (rowOf x p) := by
  rw [rowOf_addf, rowOf_broadcastTo]
  rfl

/-- The host's sum of an array and a `[K]` bias given a unit leading axis and broadcast down the rows: row `p` is
    row `p` shifted by the bias. -/
theorem rowOf_shift_host (x : FVec Ideal ⟨2, ![a, K]⟩ .f32) (bias : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![a, K]⟩ ![0, 1]) (p : Fin a) :
    rowOf (addf x (broadcastInDim ⟨2, ![a, K]⟩ ![0, 1] h2 (broadcastInDim ⟨2, ![1, K]⟩ ![1] h1 bias))) p
      = shift (fun j => bias (ix1 j)) (rowOf x p) := by
  rw [rowOf_addf, rowOf_broadcastInDim_vec]
  rfl

end Shift

/-! ## Projections -/

section Projections
variable {a K J : ℕ} {d : DotDims ⟨2, ![a, K]⟩ ⟨2, ![K, J]⟩ ⟨2, ![a, J]⟩}

/-- The device's product of two operands whose float format is first changed, into a zero accumulator: every row of
    the result is the projection of the matching row of the left operand. -/
theorem device_project (H : RowsTimesCols d) (prec : Option ContractPrecision)
    (x : FVec Ideal ⟨2, ![a, K]⟩ .f32) (w : FVec Ideal ⟨2, ![K, J]⟩ .f32) (hb : FTy.bits .bf16 < FTy.bits .f32) :
    matmul d prec (truncf .bf16 x hb) (truncf .bf16 w hb) (constant (F := Ideal) ⟨2, ![a, J]⟩ .f32 0x00000000#32)
      = mapRows (project w) x :=
  eq_mapRows _ _ _ fun p => rowOf_matmul_zero H prec (truncf .bf16 x hb) (truncf .bf16 w hb) p

/-- The host's product: every row of the result is the projection of the matching row of the left operand. -/
theorem host_project (H : RowsTimesCols d) (prec : Option ContractPrecision)
    (x : FVec Ideal ⟨2, ![a, K]⟩ .f32) (w : FVec Ideal ⟨2, ![K, J]⟩ .f32) :
    Host.dotGeneral (F := Ideal) d prec x w = mapRows (project w) x :=
  eq_mapRows _ _ _ fun p => rowOf_dotGeneral H prec x w p

/-- The device's bias-then-product: the operands re-laid to their own shapes, the `[1, K]` bias broadcast down the
    rows and added, the float format changed, the product taken into a zero accumulator. -/
theorem device_shiftProject (H : RowsTimesCols d) (prec : Option ContractPrecision)
    (x : FVec Ideal ⟨2, ![a, K]⟩ .f32) (bias : FVec Ideal ⟨2, ![1, K]⟩ .f32) (w : FVec Ideal ⟨2, ![K, J]⟩ .f32)
    (hc1 : (⟨2, ![a, K]⟩ : Shape).ShapeCasts ⟨2, ![a, K]⟩) (hc2 : (⟨2, ![1, K]⟩ : Shape).ShapeCasts ⟨2, ![1, K]⟩)
    (hB : (⟨2, ![1, K]⟩ : Shape).Broadcasts ⟨2, ![a, K]⟩) (hb : FTy.bits .bf16 < FTy.bits .f32) :
    matmul d prec
        (truncf .bf16 (addf (shapeCast ⟨2, ![a, K]⟩ x hc1) (broadcastTo ⟨2, ![a, K]⟩ (shapeCast ⟨2, ![1, K]⟩ bias hc2) hB)) hb)
        (truncf .bf16 w hb) (constant (F := Ideal) ⟨2, ![a, J]⟩ .f32 0x00000000#32)
      = mapRows (shiftProject w (rowOf bias 0)) x := by
  rw [shapeCast_self, shapeCast_self]
  refine eq_mapRows _ _ _ fun p => ?_
  rw [rowOf_matmul_zero H]
  show project w (rowOf (addf x (broadcastTo ⟨2, ![a, K]⟩ bias hB)) p) = _
  rw [rowOf_shift_device]
  rfl

/-- The host's bias-then-product: the `[K]` bias given a unit axis, broadcast down the rows and added, then a
    `dot_general`. -/
theorem host_shiftProject (H : RowsTimesCols d) (prec : Option ContractPrecision)
    (x : FVec Ideal ⟨2, ![a, K]⟩ .f32) (bias : FVec Ideal ⟨1, ![K]⟩ .f32) (w : FVec Ideal ⟨2, ![K, J]⟩ .f32)
    (h1 : (⟨1, ![K]⟩ : Shape).BroadcastsInDim ⟨2, ![1, K]⟩ ![1])
    (h2 : (⟨2, ![1, K]⟩ : Shape).BroadcastsInDim ⟨2, ![a, K]⟩ ![0, 1]) :
    Host.dotGeneral (F := Ideal) d prec
        (addf x (broadcastInDim ⟨2, ![a, K]⟩ ![0, 1] h2 (broadcastInDim ⟨2, ![1, K]⟩ ![1] h1 bias))) w
      = mapRows (shiftProject w (fun j => bias (ix1 j))) x := by
  refine eq_mapRows _ _ _ fun p => ?_
  rw [rowOf_dotGeneral H]
  show project w (rowOf (addf x (broadcastInDim ⟨2, ![a, K]⟩ ![0, 1] h2 (broadcastInDim ⟨2, ![1, K]⟩ ![1] h1 bias))) p) = _
  rw [rowOf_shift_host]
  rfl

end Projections

/-! ## Log-softmax of the shifted rows -/

section LogSoftmax
variable {a n : ℕ}

/-- The device's bias-then-log-softmax: the operands re-laid to their own shapes, the `[1, n]` bias broadcast down the
    rows and added, then the row-wise log-softmax with its lane reductions re-laid as columns. -/
theorem device_shiftLogSoftmax (x : FVec Ideal ⟨2, ![a, n]⟩ .f32) (bias : FVec Ideal ⟨2, ![1, n]⟩ .f32)
    (hc1 : (⟨2, ![a, n]⟩ : Shape).ShapeCasts ⟨2, ![a, n]⟩) (hc2 : (⟨2, ![1, n]⟩ : Shape).ShapeCasts ⟨2, ![1, n]⟩)
    (hB : (⟨2, ![1, n]⟩ : Shape).Broadcasts ⟨2, ![a, n]⟩) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩) :
    subf (subf (addf (shapeCast ⟨2, ![a, n]⟩ x hc1) (broadcastTo ⟨2, ![a, n]⟩ (shapeCast ⟨2, ![1, n]⟩ bias hc2) hB))
            (broadcastTo ⟨2, ![a, n]⟩ (shapeCast ⟨2, ![a, 1]⟩ (multiReduction .maximumf [1] ⟨1, ![a]⟩
              (addf (shapeCast ⟨2, ![a, n]⟩ x hc1) (broadcastTo ⟨2, ![a, n]⟩ (shapeCast ⟨2, ![1, n]⟩ bias hc2) hB)) accM hr hφ hM) hc) hb))
         (broadcastTo ⟨2, ![a, n]⟩ (log (shapeCast ⟨2, ![a, 1]⟩ (multiReduction .add [1] ⟨1, ![a]⟩
             (exp (subf (addf (shapeCast ⟨2, ![a, n]⟩ x hc1) (broadcastTo ⟨2, ![a, n]⟩ (shapeCast ⟨2, ![1, n]⟩ bias hc2) hB))
                (broadcastTo ⟨2, ![a, n]⟩ (shapeCast ⟨2, ![a, 1]⟩ (multiReduction .maximumf [1] ⟨1, ![a]⟩
                  (addf (shapeCast ⟨2, ![a, n]⟩ x hc1) (broadcastTo ⟨2, ![a, n]⟩ (shapeCast ⟨2, ![1, n]⟩ bias hc2) hB)) accM hr hφ hM) hc) hb)))
             acc0 hr hφ h0) hc)) hb)
      = mapRows (shiftLogSoftmax (Ideal.ofBits .f32 accM) (rowOf bias 0)) x := by
  rw [shapeCast_self, shapeCast_self]
  funext i
  obtain ⟨p, q, rfl⟩ : ∃ (p : Fin a) (q : Fin n), i = ix2 p q := ⟨i 0, i 1, eq_ix2 i⟩
  rw [logSoftmax_device_apply, rowOf_shift_device]
  rfl

/-- The host's bias-then-log-softmax: the `[n]` bias given a unit axis, broadcast down the rows and added, then the
    row-wise log-softmax with its reductions broadcast back through a unit column. -/
theorem host_shiftLogSoftmax (x : FVec Ideal ⟨2, ![a, n]⟩ .f32) (bias : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![a, n]⟩ ![0, 1]) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1]) :
    subf (subf (addf x (broadcastInDim ⟨2, ![a, n]⟩ ![0, 1] g2 (broadcastInDim ⟨2, ![1, n]⟩ ![1] g1 bias)))
            (broadcastInDim ⟨2, ![a, n]⟩ ![0, 1] h2 (broadcastInDim ⟨2, ![a, 1]⟩ ![0] h1
              (maximumf (broadcastInDim ⟨1, ![a]⟩ ![] hs (constant (F := Ideal) ⟨0, ![]⟩ .f32 wM))
                (Host.reduce FloatOps.maximumf (addf x (broadcastInDim ⟨2, ![a, n]⟩ ![0, 1] g2 (broadcastInDim ⟨2, ![1, n]⟩ ![1] g1 bias)))
                  (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf (addf x (broadcastInDim ⟨2, ![a, n]⟩ ![0, 1] g2 (broadcastInDim ⟨2, ![1, n]⟩ ![1] g1 bias)))
                (broadcastInDim ⟨2, ![a, n]⟩ ![0, 1] h2 (broadcastInDim ⟨2, ![a, 1]⟩ ![0] h1
                  (maximumf (broadcastInDim ⟨1, ![a]⟩ ![] hs (constant (F := Ideal) ⟨0, ![]⟩ .f32 wM))
                    (Host.reduce FloatOps.maximumf (addf x (broadcastInDim ⟨2, ![a, n]⟩ ![0, 1] g2 (broadcastInDim ⟨2, ![1, n]⟩ ![1] g1 bias)))
                      (constant (F := Ideal) ⟨0, ![]⟩ .f32 wM) h' hu))))))
              (constant (F := Ideal) ⟨0, ![]⟩ .f32 0x00000000#32) h' hu))))
      = mapRows (shiftLogSoftmax (Ideal.ofBits .f32 wM) (fun j => bias (ix1 j))) x := by
  funext i
  obtain ⟨p, q, rfl⟩ : ∃ (p : Fin a) (q : Fin n), i = ix2 p q := ⟨i 0, i 1, eq_ix2 i⟩
  rw [logSoftmax_host_apply _ wM h' hr hu hs h1 h2, rowOf_shift_host]
  rfl

end LogSoftmax

end Cert.ShiftedRows

end
-- ==== Proof.Region0.lean ====
/-
  The first launch: `x · W1`, two thousand rows at a time.

  The launch runs over fifty grid points. Point `t` stages rows `2000·t … 2000·t + 1999` of `x` and the whole of `W1`,
  multiplies them into a zero accumulator (after a change of float format, the identity on extended reals) and
  writes the product back as rows `2000·t …` of the output. Entry `(r, q)` of a matrix product reads row `r` of the left
  factor only, so block `t` of the output is block `t` of the whole product `x · W1`; the fifty blocks tile the
  100000 rows, so the output array ends holding `x · W1`, entry `(r, q) = ∑ k, x[r, k] · W1[k, q]`.
-/
import proofs.«132463_j11776800326010_1_alg».proof.Proof.Gen.KernelIdeal.Frame
import proofs.«132463_j11776800326010_1_alg».proof.Proof.LibMatProd
import proofs.«132463_j11776800326010_1_alg».proof.Proof.LibShiftedRows

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers of the block product contract the left operand's columns with the right operand's rows. -/
theorem rtc0 : RowsTimesCols dot_S2000x512_S512x16_S2000x16_1_0_0_1_n_n :=
  Cert.ShiftedRows.rowsTimesCols_of_lists _ rfl rfl rfl rfl rfl rfl

/-- The body's arithmetic on a staged block of rows and the staged weights is their product. -/
theorem pay0_eq (x0 : Vec Ideal S2000x512 .f32) (x1 : Vec Ideal S512x16 .f32) :
    k0_pay1 x0 x1 = prod (a := 2000) (K := 512) (b := 16) x0 x1 := by
  unfold k0_pay1
  exact (matmul_zero_eq_prod rtc0 none (truncf .bf16 x0 bitsLt_bf16_f32) (truncf .bf16 x1 bitsLt_bf16_f32)).trans rfl

/-- The body's result at an index of the block is the whole product at the index `r₀` rows further down, when the
    staged rows are rows `r₀ …` of `X` and the staged weights are `Wt`. -/
theorem block0 (X : S100000x512.Idx → EReal) (Wt : S512x16.Idx → EReal)
    (x0 : Vec Ideal S2000x512 .f32) (x1 : Vec Ideal S512x16 .f32) (r₀ : ℕ)
    (h0 : ∀ (y : S2000x512.Idx) (z : S100000x512.Idx), (z 0).val = r₀ + (y 0).val → (z 1).val = (y 1).val → x0 y = X z)
    (h1 : x1 = Wt) (j : S2000x16.Idx) (i : S100000x16.Idx)
    (hi0 : (i 0).val = r₀ + (j 0).val) (hi1 : (i 1).val = (j 1).val) :
    k0_pay1 x0 x1 j = prod (a := 100000) (K := 512) (b := 16) X Wt i := by
  rw [pay0_eq, h1]
  exact prod_of_row_block X Wt x0 r₀ h0 j i hi0 hi1

/-- The printed index maps, decided over the grid: the rows' windows move one block per point, the weights' stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the launch finds them. -/
theorem flushed0 (c : Dev nD) (t : Fin cfg0.N) :
    (dat0 V c).flushed 2 t = ((cfg0.win 2).blk t).view.read (Elt Ideal)
      (prod (a := 100000) (K := 512) (b := 16) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨e0, e1, e2, e3, e4, e5⟩ := idx0 t
  funext j
  show k0_pay1 (iblk0 V c 0 t) (iblk0 V c 1 t) j = prod (a := 100000) (K := 512) (b := 16) (V c main_arg0) (V c main_arg2) (((cfg0.win 2).blk t).view.emb j)
  refine block0 (V c main_arg0) (V c main_arg2) (iblk0 V c 0 t) (iblk0 V c 1 t) (t.val * 2000) ?_ ?_ j (((cfg0.win 2).blk t).view.emb j) ?_ ?_
  · intro y z hz0 hz1
    show V c main_arg0 (((cfg0.win 0).blk t).view.emb y) = V c main_arg0 z
    refine congrArg (V c main_arg0) (funext fun a => Fin.ext ?_)
    match a with
    | ⟨0, _⟩ => show win0_0.index t (0 : Fin 2) * 2000 + 1 * (y 0).val = (z 0).val; omega
    | ⟨1, _⟩ => show win0_0.index t (1 : Fin 2) * 512 + 1 * (y 1).val = (z 1).val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 512 + 1 * (y 0).val = (y 0).val; omega
    | ⟨1, _⟩ => show win0_1.index t (1 : Fin 2) * 16 + 1 * (y 1).val = (y 1).val; omega
  · show win0_2.index t (0 : Fin 2) * 2000 + 1 * (j 0).val = t.val * 2000 + (j 0).val; omega
  · show win0_2.index t (1 : Fin 2) * 16 + 1 * (j 1).val = (j 1).val; omega

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v0).slice (win0_2.rect t)).set ↔ _
  rw [View.set_slice_whole, Rect.mem_set_unit]
  exact Iff.rfl

/-- Every index of the output array is in the block of the point its row falls to. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 2000 < cfg0.N := by show (i 0).val / 2000 < grid0.N; rw [N_0]; omega
  obtain ⟨e0, e1, e2, e3, e4, e5⟩ := idx0 ⟨(i 0).val / 2000, hN⟩
  refine ⟨⟨(i 0).val / 2000, hN⟩, flush0_2 _, ?_⟩
  rw [mem_blk0]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [e4]; show (i 0).val / 2000 * 2000 ≤ (i 0).val ∧ (i 0).val < (i 0).val / 2000 * 2000 + 2000; omega
  | ⟨1, _⟩ => show win0_2.index ⟨(i 0).val / 2000, hN⟩ (1 : Fin 2) * 16 ≤ (i 1).val ∧ (i 1).val < win0_2.index ⟨(i 0).val / 2000, hN⟩ (1 : Fin 2) * 16 + 16; rw [e5]; omega

/-- THE FIRST LAUNCH'S OUTPUT: the whole product of the two arrays as the launch finds them. -/
theorem final0 (c : Dev nD) :
    (dat0 V c).arrAt 2 cfg0.N = prod (a := 100000) (K := 512) (b := 16) (V c main_arg0) (V c main_arg2) :=
  (dat0 V c).arrAt_eq_of_cover 2 _ (fun t _ => flushed0 V c t) cover0

end Cert.KernelIdeal.Regions

end
-- ==== Proof.Spec.lean ====
/-
  The rectifier on whole arrays, over the extended reals.

  `reluArr z A` is the array whose every entry is `max (A i) z`. The device forms it as the maximum with a splat
  scalar (followed by a change of float format, the identity on extended reals), the host as the maximum with a
  rank-0 constant broadcast over the array; both are `reluArr` at the constant's value, entry by entry. A block of rows
  of `reluArr z A` is `reluArr z` of the block.
-/
import Idealize.ShloMosaic.PureOps.Ideal
import Idealize.ShloMosaic.Lib.ValueIdx
import Idealize.ShloMosaic.Lib.Pipeline.Value

noncomputable section

namespace Cert.Gcn

open Idealize.ShloMosaic Idealize.ShloMosaic.ValueIdx

/-- The rectifier with threshold `z`, entry by entry. -/
def reluArr {s : Shape} (z : EReal) (A : s.Idx → EReal) : s.Idx → EReal := fun i => max (A i) z

theorem reluArr_apply {s : Shape} (z : EReal) (A : s.Idx → EReal) (i : s.Idx) : reluArr z A i = max (A i) z := rfl

/-- The device's spelling: the maximum with a splat scalar, then a change of float format. -/
theorem reluArr_device {s : Shape} (x : FVec Ideal s .f32) (z : Ideal .f32) (h : (FTy.bf16).bits < (FTy.f32).bits) :
    (truncf .bf16 (maximumf x (broadcast s z)) h : FVec Ideal s .bf16) = reluArr z x := rfl

/-- The host's spelling: the maximum with a rank-0 constant broadcast over the array. -/
theorem reluArr_host {s r : Shape} (x : FVec Ideal s .f32) (w : BitVec 32) (dims : Fin r.rank → Fin s.rank)
    (h : r.BroadcastsInDim s dims) :
    maximumf x (broadcastInDim s dims h (constant (F := Ideal) r .f32 w)) = reluArr (Ideal.ofBits .f32 w) x := rfl

end Cert.Gcn

end
-- ==== Proof.Region1.lean ====
/-
  The second launch: `relu(h) · W2`, ten thousand rows at a time.

  Ten grid points. Point `t` stages rows `10000·t …` of the aggregated hidden features `h` and the whole of `W2`, takes
  the maximum with zero entry by entry, and multiplies into a zero accumulator. The rectifier acts entry by entry and
  entry `(r, q)` of a product reads row `r` of the left factor only, so block `t` of the output is block `t` of the whole
  product `relu(h) · W2`; the ten blocks tile the 100000 rows.
-/
import proofs.«132463_j11776800326010_1_alg».proof.Proof.Gen.KernelIdeal.Frame
import proofs.«132463_j11776800326010_1_alg».proof.Proof.LibMatProd
import proofs.«132463_j11776800326010_1_alg».proof.Proof.LibShiftedRows
import proofs.«132463_j11776800326010_1_alg».proof.Proof.Spec
import proofs.«132463_j11776800326010_1_alg».proof.Proof.Region0

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd
open Cert.Gcn

variable (V : (c : Dev nD) → (b : Ref sig .tc) → Buf (Elt Ideal) ((c : Thread nD τ).loc b))

theorem rtc1 : RowsTimesCols dot_S10000x16_S16x40_S10000x40_1_0_0_1_n_n :=
  Cert.ShiftedRows.rowsTimesCols_of_lists _ rfl rfl rfl rfl rfl rfl

/-- The zero the body takes the maximum with. -/
abbrev zero32 : EReal := Ideal.ofBits .f32 0x00000000#32

/-- The body's arithmetic on a staged block of rows and the staged weights: the rectified block times the weights. -/
theorem pay1_eq (x0 : Vec Ideal S10000x16 .f32) (x1 : Vec Ideal S16x40 .f32) :
    k1_pay1 x0 x1 = prod (a := 10000) (K := 16) (b := 40) (reluArr zero32 x0) x1 := by
  unfold k1_pay1
  rw [shapeCast_self]
  exact (matmul_zero_eq_prod rtc1 none
    (truncf .bf16 (maximumf x0 (broadcast S10000x16 (Scalar.ofBits (F := Ideal) .f32 0x00000000#32))) bitsLt_bf16_f32)
    (truncf .bf16 x1 bitsLt_bf16_f32)).trans rfl

theorem block1 (A : S100000x16.Idx → EReal) (Wt : S16x40.Idx → EReal)
    (x0 : Vec Ideal S10000x16 .f32) (x1 : Vec Ideal S16x40 .f32) (r₀ : ℕ)
    (h0 : ∀ (y : S10000x16.Idx) (z : S100000x16.Idx), (z 0).val = r₀ + (y 0).val → (z 1).val = (y 1).val → x0 y = A z)
    (h1 : x1 = Wt) (j : S10000x40.Idx) (i : S100000x40.Idx)
    (hi0 : (i 0).val = r₀ + (j 0).val) (hi1 : (i 1).val = (j 1).val) :
    k1_pay1 x0 x1 j = prod (a := 100000) (K := 16) (b := 40) (reluArr zero32 A) Wt i := by
  rw [pay1_eq, h1]
  refine prod_of_row_block (reluArr zero32 A) Wt (reluArr zero32 x0) r₀ (fun y z hz0 hz1 => ?_) j i hi0 hi1
  show max (x0 y) zero32 = max (A z) zero32
  rw [h0 y z hz0 hz1]

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the rectified input with the weights. -/
theorem flushed1 (c : Dev nD) (t : Fin cfg1.N) :
    (dat1 V c).flushed 2 t = ((cfg1.win 2).blk t).view.read (Elt Ideal)
      (prod (a := 100000) (K := 16) (b := 40) (reluArr zero32 (V c main_v46)) (V c main_arg4)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x40) hz]
  obtain ⟨e0, e1, e2, e3, e4, e5⟩ := idx1 t
  funext j
  show k1_pay1 (iblk1 V c 0 t) (iblk1 V c 1 t) j = prod (a := 100000) (K := 16) (b := 40) (reluArr zero32 (V c main_v46)) (V c main_arg4) (((cfg1.win 2).blk t).view.emb j)
  refine block1 (V c main_v46) (V c main_arg4) (iblk1 V c 0 t) (iblk1 V c 1 t) (t.val * 10000) ?_ ?_ j (((cfg1.win 2).blk t).view.emb j) ?_ ?_
  · intro y z hz0 hz1
    show V c main_v46 (((cfg1.win 0).blk t).view.emb y) = V c main_v46 z
    refine congrArg (V c main_v46) (funext fun a => Fin.ext ?_)
    match a with
    | ⟨0, _⟩ => show win1_0.index t (0 : Fin 2) * 10000 + 1 * (y 0).val = (z 0).val; omega
    | ⟨1, _⟩ => show win1_0.index t (1 : Fin 2) * 16 + 1 * (y 1).val = (z 1).val; omega
  · funext y
    show V c main_arg4 (((cfg1.win 1).blk t).view.emb y) = V c main_arg4 y
    refine congrArg (V c main_arg4) (funext fun a => Fin.ext ?_)
    match a with
    | ⟨0, _⟩ => show win1_1.index t (0 : Fin 2) * 16 + 1 * (y 0).val = (y 0).val; omega
    | ⟨1, _⟩ => show win1_1.index t (1 : Fin 2) * 40 + 1 * (y 1).val = (y 1).val; omega
  · show win1_2.index t (0 : Fin 2) * 10000 + 1 * (j 0).val = t.val * 10000 + (j 0).val; omega
  · show win1_2.index t (1 : Fin 2) * 40 + 1 * (j 1).val = (j 1).val; omega

theorem mem_blk1 (t : Fin cfg1.N) (i : S100000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v47).slice (win1_2.rect t)).set ↔ _
  rw [View.set_slice_whole, Rect.mem_set_unit]
  exact Iff.rfl

theorem cover1 (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : (i 0).val / 10000 < cfg1.N := by show (i 0).val / 10000 < grid1.N; rw [N_1]; omega
  obtain ⟨e0, e1, e2, e3, e4, e5⟩ := idx1 ⟨(i 0).val / 10000, hN⟩
  refine ⟨⟨(i 0).val / 10000, hN⟩, flush1_2 _, ?_⟩
  rw [mem_blk1]
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; rw [e4]; show (i 0).val / 10000 * 10000 ≤ (i 0).val ∧ (i 0).val < (i 0).val / 10000 * 10000 + 10000; omega
  | ⟨1, _⟩ => show win1_2.index ⟨(i 0).val / 10000, hN⟩ (1 : Fin 2) * 40 ≤ (i 1).val ∧ (i 1).val < win1_2.index ⟨(i 0).val / 10000, hN⟩ (1 : Fin 2) * 40 + 40; rw [e5]; omega

/-- THE SECOND LAUNCH'S OUTPUT: the rectified input times the weights, as whole arrays. -/
theorem final1 (c : Dev nD) :
    (dat1 V c).arrAt 2 cfg1.N = prod (a := 100000) (K := 16) (b := 40) (reluArr zero32 (V c main_v46)) (V c main_arg4) :=
  (dat1 V c).arrAt_eq_of_cover 2 _ (fun t _ => flushed1 V c t) cover1

end Cert.KernelIdeal.Regions

end
-- ==== Proof.LibRowTiles.lean ====
/-
  A tile of rows of a row map, over the extended reals.

  `mapRows f A` treats every row of `A` alone, so evaluating it on a tile of consecutive rows of `A` gives the matching
  tile of `mapRows f A`: if `A₀` holds the rows of `A` from row `r₀` on, then `mapRows f A₀` at `(p, q)` is `mapRows f A` at
  `(r₀ + p, q)`. This is the one step from a row-tiled evaluation (a grid of row blocks) to the whole array; the row
  function `f` is arbitrary and nothing is asked of the entries.
-/
import proofs.«132463_j11776800326010_1_alg».proof.Proof.LibRowMaps

noncomputable section

namespace Cert.RowTiles

open Idealize.ShloMosaic Idealize.ShloMosaic.ValueIdx Cert.RowLayers Cert.Layers

/-- A tile of rows: `A₀` reads as `A` shifted down by `r₀` rows, and then so does the row map. -/
theorem mapRows_tile {a₀ a K J : ℕ} (f : (Fin K → EReal) → Fin J → EReal)
    (A : (⟨2, ![a, K]⟩ : Shape).Idx → EReal) (A₀ : (⟨2, ![a₀, K]⟩ : Shape).Idx → EReal) (r₀ : ℕ)
    (hA₀ : ∀ (y : (⟨2, ![a₀, K]⟩ : Shape).Idx) (z : (⟨2, ![a, K]⟩ : Shape).Idx),
      (z 0).val = r₀ + (y 0).val → (z 1).val = (y 1).val → A₀ y = A z)
    (j : (⟨2, ![a₀, J]⟩ : Shape).Idx) (i : (⟨2, ![a, J]⟩ : Shape).Idx)
    (hi0 : (i 0).val = r₀ + (j 0).val) (hi1 : (i 1).val = (j 1).val) :
    mapRows f A₀ j = mapRows f A i := by
  have hrow : rowOf A₀ (j 0) = rowOf A (i 0) := funext fun k => hA₀ (ix2 (j 0) k) (ix2 (i 0) k) hi0 rfl
  have hcol : (j 1 : Fin J) = i 1 := Fin.ext hi1.symm
  show f (rowOf A₀ (j 0)) (j 1) = f (rowOf A (i 0)) (i 1)
  rw [hrow, hcol]

end Cert.RowTiles

end
-- ==== Proof.Region2.lean ====
/-
  The third launch: the row-wise log-softmax, ten thousand rows at a time.

  Ten grid points. Point `t` stages rows `10000·t …` of the logits `L`; the body shifts each row by its maximum,
  exponentiates, sums the row, takes the logarithm and subtracts. Each row is treated alone, so block `t` of the output
  is block `t` of the array whose row `r` is the log-softmax of row `r` of `L`; the ten blocks tile the 100000 rows.
-/
import proofs.«132463_j11776800326010_1_alg».proof.Proof.Gen.KernelIdeal.Frame
import proofs.«132463_j11776800326010_1_alg».proof.Proof.LibLogSoftmaxRows
import proofs.«132463_j11776800326010_1_alg».proof.Proof.LibRowTiles
import proofs.«132463_j11776800326010_1_alg».proof.Proof.Region0

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd
open Cert.Layers Cert.ChebRows Cert.RowTiles

variable (V : (c : Dev nD) → (b : Ref sig .tc) → Buf (Elt Ideal) ((c : Thread nD τ).loc b))

/-- The start value of the row maximum: the word of minus infinity. -/
abbrev negInf32 : EReal := Ideal.ofBits .f32 0xFF800000#32

/-- The body's arithmetic on a staged block of rows: the log-softmax of each row. -/
theorem pay2_eq (x0 : Vec Ideal S10000x40 .f32) :
    k2_pay1 x0 = mapRows (a := 10000) (K := 40) (J := 40) (logSoftmax negInf32) x0 := by
  funext j
  obtain ⟨p, q, rfl⟩ : ∃ (p : Fin 10000) (q : Fin 40), j = ix2 p q := ⟨j 0, j 1, eq_ix2 j⟩
  unfold k2_pay1
  rw [shapeCast_self]
  exact logSoftmax_device_apply (a := 10000) (n := 40) x0 0xFF800000#32 0x00000000#32 reduces_S10000x40_S10000 (.inl rfl) rfl rfl
    shapeCasts_S10000_S10000x1 broadcasts_S10000x1_S10000x40 p q

theorem block2 (L : S100000x40.Idx → EReal) (x0 : Vec Ideal S10000x40 .f32) (r₀ : ℕ)
    (h0 : ∀ (y : S10000x40.Idx) (z : S100000x40.Idx), (z 0).val = r₀ + (y 0).val → (z 1).val = (y 1).val → x0 y = L z)
    (j : S10000x40.Idx) (i : S100000x40.Idx)
    (hi0 : (i 0).val = r₀ + (j 0).val) (hi1 : (i 1).val = (j 1).val) :
    k2_pay1 x0 j = mapRows (a := 100000) (K := 40) (J := 40) (logSoftmax negInf32) L i := by
  rw [pay2_eq]
  exact mapRows_tile (logSoftmax negInf32) L x0 r₀ h0 j i hi0 hi1

theorem idx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of the row-wise log-softmax of the logits as the launch finds them. -/
theorem flushed2 (c : Dev nD) (t : Fin cfg2.N) :
    (dat2 V c).flushed 1 t = ((cfg2.win 1).blk t).view.read (Elt Ideal)
      (mapRows (a := 100000) (K := 40) (J := 40) (logSoftmax negInf32) (V c main_v93)) := by
  show (cfg2.win 1).cut (grid2.coords t) ((dat2 V c).after 1 t) = _
  rw [after2_1]
  unfold out2_1
  rw [View.canon_unit_zero hz]
  simp only [View.ld_unit_zero (S := S10000x40) hz]
  obtain ⟨e0, e1, e2, e3⟩ := idx2 t
  funext j
  show k2_pay1 (iblk2 V c 0 t) j = mapRows (a := 100000) (K := 40) (J := 40) (logSoftmax negInf32) (V c main_v93) (((cfg2.win 1).blk t).view.emb j)
  refine block2 (V c main_v93) (iblk2 V c 0 t) (t.val * 10000) ?_ j (((cfg2.win 1).blk t).view.emb j) ?_ ?_
  · intro y z hz0 hz1
    show V c main_v93 (((cfg2.win 0).blk t).view.emb y) = V c main_v93 z
    refine congrArg (V c main_v93) (funext fun a => Fin.ext ?_)
    match a with
    | ⟨0, _⟩ => show win2_0.index t (0 : Fin 2) * 10000 + 1 * (y 0).val = (z 0).val; omega
    | ⟨1, _⟩ => show win2_0.index t (1 : Fin 2) * 40 + 1 * (y 1).val = (z 1).val; omega
  · show win2_1.index t (0 : Fin 2) * 10000 + 1 * (j 0).val = t.val * 10000 + (j 0).val; omega
  · show win2_1.index t (1 : Fin 2) * 40 + 1 * (j 1).val = (j 1).val; omega

theorem mem_blk2 (t : Fin cfg2.N) (i : S100000x40.Idx) :
    i ∈ ((cfg2.win 1).blk t).view.set ↔ ∀ a : Fin 2, win2_1.index t a * S10000x40.size a ≤ (i a).val ∧ (i a).val < win2_1.index t a * S10000x40.size a + S10000x40.size a := by
  show i ∈ ((View.whole main_v94).slice (win2_1.rect t)).set ↔ _
  rw [View.set_slice_whole, Rect.mem_set_unit]
  exact Iff.rfl

theorem cover2 (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  have hN : (i 0).val / 10000 < cfg2.N := by show (i 0).val / 10000 < grid2.N; rw [N_2]; omega
  obtain ⟨e0, e1, e2, e3⟩ := idx2 ⟨(i 0).val / 10000, hN⟩
  refine ⟨⟨(i 0).val / 10000, hN⟩, flush2_1 _, ?_⟩
  rw [mem_blk2]
  intro a
  match a with
  | ⟨0, _⟩ => show win2_1.index ⟨(i 0).val / 10000, hN⟩ (0 : Fin 2) * 10000 ≤ (i 0).val ∧ (i 0).val < win2_1.index ⟨(i 0).val / 10000, hN⟩ (0 : Fin 2) * 10000 + 10000; rw [e2]; show (i 0).val / 10000 * 10000 ≤ (i 0).val ∧ (i 0).val < (i 0).val / 10000 * 10000 + 10000; omega
  | ⟨1, _⟩ => show win2_1.index ⟨(i 0).val / 10000, hN⟩ (1 : Fin 2) * 40 ≤ (i 1).val ∧ (i 1).val < win2_1.index ⟨(i 0).val / 10000, hN⟩ (1 : Fin 2) * 40 + 40; rw [e3]; omega

/-- THE THIRD LAUNCH'S OUTPUT: the row-wise log-softmax of the logits, as a whole array. -/
theorem final2 (c : Dev nD) :
    (dat2 V c).arrAt 1 cfg2.N = mapRows (a := 100000) (K := 40) (J := 40) (logSoftmax negInf32) (V c main_v93) :=
  (dat2 V c).arrAt_eq_of_cover 1 _ (fun t _ => flushed2 V c t) cover2

end Cert.KernelIdeal.Regions

end
-- ==== Proof.KernelValue.lean ====
/-
  The kernel's result as the network function.

  The result buffer ends at the third launch's output, which is the row-wise log-softmax of the buffer the second
  stretch of host lines leaves; that is the second aggregation layer of the second launch's output, the product of the
  rectified first aggregation layer with `W2`; and the first aggregation layer is taken of the first launch's output,
  the product `x · W1`. No host line and no launch writes an argument array, so every argument is read as launched.
  Composing the steps gives the result as one function of the six arguments.
-/
import proofs.«132463_j11776800326010_1_alg».proof.Proof.KernelRun
import proofs.«132463_j11776800326010_1_alg».proof.Proof.KernelHost
import proofs.«132463_j11776800326010_1_alg».proof.Proof.Region0
import proofs.«132463_j11776800326010_1_alg».proof.Proof.Region1
import proofs.«132463_j11776800326010_1_alg».proof.Proof.Region2

set_option maxRecDepth 16384

noncomputable section

namespace Cert.KernelIdeal.RunValue

open Cert.KernelIdeal Cert.KernelIdeal.Gen
open Idealize.ShloMosaic Idealize.ShloMosaic.TcCoe Idealize.ShloMosaic.ValueIdx Idealize.SL.Sem
open Cert.RowLayers Cert.MatProd Cert.Layers Cert.ChebRows Cert.Gcn Cert.KernelIdeal.Regions

/-- The two-layer graph network as one function of its six arguments, over the extended reals:
    `log_softmax (A (relu (A (x · W1) + b1) · W2) + b2)`, the aggregations `A · + b` in the host's spelling. -/
def net (x : S100000x512.Idx → EReal) (ei : (⟨S2x3200000, .i32⟩ : BufTy).Contents (Elt Ideal))
    (w1 : S512x16.Idx → EReal) (b1 : S16.Idx → EReal) (w2 : S16x40.Idx → EReal) (b2 : S40.Idx → EReal) :
    S100000x40.Idx → EReal :=
  mapRows (a := 100000) (K := 40) (J := 40) (logSoftmax negInf32)
    (Layers.layer2 (F := Ideal)
      (prod (a := 100000) (K := 16) (b := 40)
        (reluArr zero32 (Layers.layer1 (F := Ideal) (prod (a := 100000) (K := 512) (b := 16) x w1) ei b1)) w2) ei b2)

variable (m : (ℓ : Loc nD τ sig) → Buf (Elt Ideal) ℓ) (ρ : Dev nD → PrngReg)

/-- An argument array the first stretch passes through, read at the second launch's entry. -/
theorem W4_arg4 (c : Dev nD) : W4 m ρ c (Proc.devRef .tc main_arg4) = m ((c : Thread nD τ).loc main_arg4) :=
  (Layers.stretch1_arg4 (W1 m ρ c)).trans ((W1_of_ne m ρ c main_arg4 (by decide)).trans rfl)

theorem W5_arg1 (c : Dev nD) : W5 m ρ c (Proc.devRef .tc main_arg1) = m ((c : Thread nD τ).loc main_arg1) :=
  (W5_of_ne m ρ c main_arg1 (by decide)).trans
    ((Layers.stretch1_arg1 (W1 m ρ c)).trans ((W1_of_ne m ρ c main_arg1 (by decide)).trans rfl))

theorem W5_arg5 (c : Dev nD) : W5 m ρ c (Proc.devRef .tc main_arg5) = m ((c : Thread nD τ).loc main_arg5) :=
  (W5_of_ne m ρ c main_arg5 (by decide)).trans
    ((Layers.stretch1_arg5 (W1 m ρ c)).trans ((W1_of_ne m ρ c main_arg5 (by decide)).trans rfl))

theorem W1_arg1 (c : Dev nD) : W1 m ρ c (Proc.devRef .tc main_arg1) = m ((c : Thread nD τ).loc main_arg1) :=
  (W1_of_ne m ρ c main_arg1 (by decide)).trans rfl

theorem W1_arg3 (c : Dev nD) : W1 m ρ c (Proc.devRef .tc main_arg3) = m ((c : Thread nD τ).loc main_arg3) :=
  (W1_of_ne m ρ c main_arg3 (by decide)).trans rfl

/-- The first launch's output: `x · W1`. -/
theorem W1_v0 (c : Dev nD) : W1 m ρ c (Proc.devRef .tc main_v0)
    = prod (a := 100000) (K := 512) (b := 16) (m ((c : Thread nD τ).loc main_arg0)) (m ((c : Thread nD τ).loc main_arg2)) :=
  (W1_arr m ρ c 2).trans (final0 (V0 m ρ) c)

/-- The second launch's input: the first aggregation layer of `x · W1`. -/
theorem W4_v46 (c : Dev nD) : W4 m ρ c (Proc.devRef .tc main_v46)
    = Layers.layer1 (F := Ideal) (prod (a := 100000) (K := 512) (b := 16) (m ((c : Thread nD τ).loc main_arg0)) (m ((c : Thread nD τ).loc main_arg2)))
        (m ((c : Thread nD τ).loc main_arg1)) (m ((c : Thread nD τ).loc main_arg3)) := by
  refine (Layers.stretch1_v46 (W1 m ρ c)).trans ?_
  rw [W1_v0 m ρ c, W1_arg1 m ρ c, W1_arg3 m ρ c]

/-- The second launch's output. -/
theorem W5_v47 (c : Dev nD) : W5 m ρ c (Proc.devRef .tc main_v47)
    = prod (a := 100000) (K := 16) (b := 40)
        (reluArr zero32 (Layers.layer1 (F := Ideal) (prod (a := 100000) (K := 512) (b := 16) (m ((c : Thread nD τ).loc main_arg0)) (m ((c : Thread nD τ).loc main_arg2)))
          (m ((c : Thread nD τ).loc main_arg1)) (m ((c : Thread nD τ).loc main_arg3))))
        (m ((c : Thread nD τ).loc main_arg4)) := by
  refine ((W5_arr m ρ c 2).trans (final1 (V4 m ρ) c)).trans ?_
  show prod (a := 100000) (K := 16) (b := 40) (reluArr zero32 (W4 m ρ c (Proc.devRef .tc main_v46))) (W4 m ρ c (Proc.devRef .tc main_arg4)) = _
  rw [W4_v46 m ρ c, W4_arg4 m ρ c]

/-- THE RESULT: the last boundary's contents of the result buffer are the network function of the arguments. -/
theorem result_eq (c : Dev nD) : W9 m ρ c (Proc.devRef .tc main_v94)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W9_arr m ρ c 1).trans (final2 (V8 m ρ) c)).trans ?_
  show mapRows (a := 100000) (K := 40) (J := 40) (logSoftmax negInf32) (W8 m ρ c (Proc.devRef .tc main_v93)) = _
  unfold net
  refine congrArg (mapRows (a := 100000) (K := 40) (J := 40) (logSoftmax negInf32)) ?_
  refine (Layers.stretch2_v93 (W5 m ρ c)).trans ?_
  rw [W5_v47 m ρ c, W5_arg1 m ρ c, W5_arg5 m ρ c]

/-- The kernel's run with the result at the network function of the launch arguments. -/
theorem run : θ_run defs (onTc (τ := τ) (main (F := Ideal))) ⟨m, fun _ => 0, ρ⟩ (fun r => ∀ c : Dev nD,
      r.2.mem ((c.tc : Thread nD τ).loc main_v94)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.RunValue

end
-- ==== Proof.RefTerm.lean ====
/-
  The pieces of the reference program, cut at its two matrix products.

  The reference computes `log_softmax (A (relu (A (x · W1) + b1) · W2) + b2)`, where `A` is the normalised
  aggregation over the edge list extended by self-loops. Its @main is one long line of array operations; here the two
  aggregation layers, the hidden product (rectifier, then product with the weights) and the final row-wise
  log-softmax are named as functions of what they read, in the program's own spelling.
-/
import proofs.«132463_j11776800326010_1_alg».proof.Proof.Gen.ReferenceIdeal

set_option maxRecDepth 16384

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- One graph-convolution aggregate over 16 feature columns, as the host lines spell it. With `src`/`dst` the edge
    list followed by one self-loop per node, `deg[n] = #{e : dst e = n}` and `d = where(deg > 0, rsqrt deg, 0)`:
    row `n` of the result is `(∑ e with dst e = n, h[src e] · (d[src e] · d[dst e])) + b`. -/
def layer1 (h : (⟨S100000x16, .f32⟩ : BufTy).Contents (Elt F)) (ei : (⟨S2x3200000, .i32⟩ : BufTy).Contents (Elt F)) (b : (⟨S16, .f32⟩ : BufTy).Contents (Elt F)) :
    (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 h (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0))))))))) (broadcastInDim S100000x16 ![0, 1] bcast_S1x16_S100000x16_0_1 (broadcastInDim S1x16 ![1] bcast_S16_S1x16_1 b))

/-- The same aggregate over 40 feature columns. -/
def layer2 (h : (⟨S100000x40, .f32⟩ : BufTy).Contents (Elt F)) (ei : (⟨S2x3200000, .i32⟩ : BufTy).Contents (Elt F)) (b : (⟨S40, .f32⟩ : BufTy).Contents (Elt F)) :
    (⟨S100000x40, .f32⟩ : BufTy).Contents (Elt F) :=
  addf (Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (mulf (Host.gather gather_S100000x40_S3300000x1_S3300000x40_1_0_n_n_0_1_140 h (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (broadcastInDim S3300000x40 ![0, 1] bcast_S3300000x1_S3300000x40_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0))))))))) (broadcastInDim S100000x40 ![0, 1] bcast_S1x40_S100000x40_0_1 (broadcastInDim S1x40 ![1] bcast_S40_S1x40_1 b))

/-- The hidden product: the rectifier `max a 0` entry by entry, then the product with the weights `w`. -/
def hidden (a : (⟨S100000x16, .f32⟩ : BufTy).Contents (Elt F)) (w : (⟨S16x40, .f32⟩ : BufTy).Contents (Elt F)) : (⟨S100000x40, .f32⟩ : BufTy).Contents (Elt F) :=
  Host.dotGeneral dot_S100000x16_S16x40_S100000x40_1_0_0_1_n_n none (maximumf a (broadcastInDim S100000x16 ![] bcast_S_S100000x16 (constant S_ .f32 0x00000000#32))) w

/-- The row-wise log-softmax of the logits `L`: shift by the row maximum, exponentiate, sum the row, take the
    logarithm, subtract. -/
def head (L : (⟨S100000x40, .f32⟩ : BufTy).Contents (Elt F)) : (⟨S100000x40, .f32⟩ : BufTy).Contents (Elt F) :=
  subf (subf L (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf L (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x40_S100000_d1 h_S_)))))) (constant S_ .f32 0x00000000#32) reducesTo_S100000x40_S100000_d1 h_S_))))

end Cert.ReferenceIdeal.Layers

end
-- ==== Proof.RefValue.lean ====
/-
  The reference's result as the network function.

  The reference's result term is the composition of its named pieces (the two aggregation layers, the hidden product,
  the log-softmax head). Each piece that is not an aggregation is read here as a whole-array function over the extended
  reals: a host `dot_general` with rows-times-columns dimension numbers is the matrix product entry by entry; the
  maximum with a broadcast zero is the rectifier; the head is the row-wise log-softmax (its extra maximum with the fold's
  own start value changes nothing). No entry is asked to be finite.
-/
import proofs.«132463_j11776800326010_1_alg».proof.Proof.RefTerm
import proofs.«132463_j11776800326010_1_alg».proof.Proof.LibMatProd
import proofs.«132463_j11776800326010_1_alg».proof.Proof.LibShiftedRows
import proofs.«132463_j11776800326010_1_alg».proof.Proof.Spec

set_option maxRecDepth 16384

noncomputable section

namespace Cert.ReferenceIdeal.Layers

open Cert.ReferenceIdeal Cert.ReferenceIdeal.Gen
open Idealize.ShloMosaic Idealize.ShloMosaic.TcCoe Idealize.ShloMosaic.ValueIdx Idealize.SL.Sem
open Cert.RowLayers Cert.MatProd Cert.Layers Cert.ChebRows Cert.Gcn

theorem rtcR1 : RowsTimesCols dot_S100000x512_S512x16_S100000x16_1_0_0_1_n_n :=
  Cert.ShiftedRows.rowsTimesCols_of_lists _ rfl rfl rfl rfl rfl rfl

theorem rtcR2 : RowsTimesCols dot_S100000x16_S16x40_S100000x40_1_0_0_1_n_n :=
  Cert.ShiftedRows.rowsTimesCols_of_lists _ rfl rfl rfl rfl rfl rfl

/-- The first product. -/
theorem dot1_eq (x : FVec Ideal S100000x512 .f32) (w : FVec Ideal S512x16 .f32) :
    Host.dotGeneral (F := Ideal) dot_S100000x512_S512x16_S100000x16_1_0_0_1_n_n none x w
      = prod (a := 100000) (K := 512) (b := 16) x w :=
  dotGeneral_eq_prod rtcR1 none x w

/-- The hidden product: the rectified features times the weights. -/
theorem hidden_eq (a : FVec Ideal S100000x16 .f32) (w : FVec Ideal S16x40 .f32) :
    hidden (F := Ideal) a w = prod (a := 100000) (K := 16) (b := 40) (reluArr (Ideal.ofBits .f32 0x00000000#32) a) w := by
  unfold hidden
  exact (dotGeneral_eq_prod rtcR2 none _ w).trans rfl

/-- The head: the row-wise log-softmax. -/
theorem head_eq (L : FVec Ideal S100000x40 .f32) :
    head (F := Ideal) L = mapRows (a := 100000) (K := 40) (J := 40) (logSoftmax (Ideal.ofBits .f32 0xFF800000#32)) L := by
  funext i
  obtain ⟨p, q, rfl⟩ : ∃ (p : Fin 100000) (q : Fin 40), i = ix2 p q := ⟨i 0, i 1, eq_ix2 i⟩
  unfold head
  exact logSoftmax_host_apply (a := 100000) (n := 40) L 0xFF800000#32 reducesTo_S100000x40_S100000_d1 (by decide) h_S_
    bcast_S_S100000 bcast_S100000_S100000x1_0 bcast_S100000x1_S100000x40_0_1 p q

end Cert.ReferenceIdeal.Layers

end
-- ==== Proof.Bridge.lean ====
/-
  The two programs compute one function.

  The kernel's program and the reference run the same host lines for the two aggregation layers, so the layers named on
  either side are one function of the features, the edge list and the bias. With the matrix products, the rectifier
  and the log-softmax each read as the same whole-array function on both sides, the composition the reference's run
  ends at is the network function the kernel's run ends at, of the same arguments.
-/
import proofs.«132463_j11776800326010_1_alg».proof.Proof.KernelValue
import proofs.«132463_j11776800326010_1_alg».proof.Proof.RefValue

set_option maxRecDepth 16384

noncomputable section

namespace Cert.Bridge

open Idealize.ShloMosaic Idealize.ShloMosaic.TcCoe Idealize.SL.Sem

/-- The first aggregation layer is spelt by the same lines in both programs. -/
theorem layer1_eq : @Cert.ReferenceIdeal.Layers.layer1 Ideal _ = @Cert.KernelIdeal.Layers.layer1 Ideal _ := rfl

/-- So is the second. -/
theorem layer2_eq : @Cert.ReferenceIdeal.Layers.layer2 Ideal _ = @Cert.KernelIdeal.Layers.layer2 Ideal _ := rfl

/-- The composition the reference's run ends at is the network function of the same arguments. -/
theorem ref_net_eq (x0 : FVec Ideal Cert.ReferenceIdeal.S100000x512 .f32) (x1 : (⟨Cert.ReferenceIdeal.S2x3200000, .i32⟩ : BufTy).Contents (Elt Ideal))
    (x2 : FVec Ideal Cert.ReferenceIdeal.S512x16 .f32) (x3 : FVec Ideal Cert.ReferenceIdeal.S16 .f32) (x4 : FVec Ideal Cert.ReferenceIdeal.S16x40 .f32) (x5 : FVec Ideal Cert.ReferenceIdeal.S40 .f32) :
    Cert.ReferenceIdeal.Layers.head (F := Ideal) (Cert.ReferenceIdeal.Layers.layer2 (Cert.ReferenceIdeal.Layers.hidden
        (Cert.ReferenceIdeal.Layers.layer1
          (Host.dotGeneral (F := Ideal) Cert.ReferenceIdeal.dot_S100000x512_S512x16_S100000x16_1_0_0_1_n_n none x0 x2) x1 x3) x4) x1 x5)
      = Cert.KernelIdeal.RunValue.net x0 x1 x2 x3 x4 x5 := by
  rw [Cert.ReferenceIdeal.Layers.head_eq, Cert.ReferenceIdeal.Layers.hidden_eq, Cert.ReferenceIdeal.Layers.dot1_eq,
    layer1_eq, layer2_eq]
  rfl

end Cert.Bridge

end
-- ==== Proof.LibHostFold.lean ====
/-
  The fold of a line of host operations over a concatenated line, and typed references' transports.

  `StableHlo.after ops V` is what a core's buffers hold once the operations `ops` have run in order from contents `V`.
  Running two lines one after the other is running the second from what the first leaves: the fold over `l₁ ++ l₂` is
  the fold over `l₂` of the fold over `l₁`. This lets a long straight-line program be read one stretch at a time, each
  stretch from a valuation that is only a variable, so that no stretch's term is ever nested inside another's.
  An operation of an inlined call reads and writes its buffers through a typed reference, transporting contents along
  the equation "the buffer's type is the value's"; writing a value and reading it back through the same typed reference
  is the identity, whatever the equation's proof.
-/
import Idealize.ShloMosaic.Lib.StableHlo.Run

namespace Cert.HostFold

open Idealize.ShloMosaic Idealize.ShloMosaic.StableHlo

variable {τ : Topo} {sig : RefSig} {Val : EltTy → Type}

/-- The fold over a concatenation is the folds composed. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's buffer and back are the contents. -/
theorem ofBuf_toBuf {T : BufTy} (x : TRef sig T) (v : T.Contents Val) : x.ofBuf (x.toBuf v) = v := by
  obtain ⟨r, h, h2, h3⟩ := x
  subst h
  rfl

end Cert.HostFold
-- ==== Proof.RefStages.lean ====
/-
  The reference program's run, read stage by stage.

  The reference's @main is a straight line of 138 host operations. It is cut into four stretches: the first product and
  the first aggregation layer; the rectifier and the second product; the second aggregation layer; the log-softmax.
  From any contents `V` of the buffers each stretch leaves its named function of what it reads in the buffer the next
  stretch reads, and writes no argument array; the fold over the whole line is the folds of the stretches composed, so
  the result buffer ends at the composition of the four named functions, of the arguments as launched.
-/
import proofs.«132463_j11776800326010_1_alg».proof.Proof.RefRun
import proofs.«132463_j11776800326010_1_alg».proof.Proof.RefTerm
import proofs.«132463_j11776800326010_1_alg».proof.Proof.LibConcatPair
import proofs.«132463_j11776800326010_1_alg».proof.Proof.LibHostFold

set_option maxRecDepth 16384

noncomputable section

namespace Cert.ReferenceIdeal.Layers

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-- The first product and the first aggregation layer. -/
abbrev opsA : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v4 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v4 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The rectifier and the second product. -/
abbrev opsB : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- The second aggregation layer. -/
abbrev opsC : List (HloOp τ sig (Elt F)) :=
  [ nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select,
    nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v87 main_v88 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)) ]

/-- The log-softmax. -/
abbrev opsD : List (HloOp τ sig (Elt F)) :=
  [ TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxHeartbeats 4000000 in
/-- The program's line is the four stretches one after the other. -/
theorem ops_split : (ops : List (HloOp τ sig (Elt F))) = opsA ++ (opsB ++ (opsC ++ opsD)) := rfl

set_option maxHeartbeats 8000000 in
theorem stageA_v46 (V : Valuation τ sig (Elt F)) :
    (after opsA V (Proc.devRef .tc main_v46) : (⟨S100000x16, .f32⟩ : BufTy).Contents (Elt F))
      = layer1 (Host.dotGeneral dot_S100000x512_S512x16_S100000x16_1_0_0_1_n_n none (V (Proc.devRef .tc main_arg0)) (V (Proc.devRef .tc main_arg2)))
          (V (Proc.devRef .tc main_arg1)) (V (Proc.devRef .tc main_arg3)) := by
  unfold layer1
  after_results_pairs <;> rfl

set_option maxHeartbeats 8000000 in
theorem stageA_arg1 (V : Valuation τ sig (Elt F)) :
    after opsA V (Proc.devRef .tc main_arg1) = V (Proc.devRef .tc main_arg1) := by
  after_results_pairs <;> rfl

set_option maxHeartbeats 8000000 in
theorem stageA_arg4 (V : Valuation τ sig (Elt F)) :
    after opsA V (Proc.devRef .tc main_arg4) = V (Proc.devRef .tc main_arg4) := by
  after_results_pairs <;> rfl

set_option maxHeartbeats 8000000 in
theorem stageA_arg5 (V : Valuation τ sig (Elt F)) :
    after opsA V (Proc.devRef .tc main_arg5) = V (Proc.devRef .tc main_arg5) := by
  after_results_pairs <;> rfl

set_option maxHeartbeats 8000000 in
theorem stageB_v48 (V : Valuation τ sig (Elt F)) :
    (after opsB V (Proc.devRef .tc main_v48) : (⟨S100000x40, .f32⟩ : BufTy).Contents (Elt F))
      = hidden (V (Proc.devRef .tc main_v46)) (V (Proc.devRef .tc main_arg4)) := by
  unfold hidden
  after_results_pairs <;> rfl

set_option maxHeartbeats 8000000 in
theorem stageB_arg1 (V : Valuation τ sig (Elt F)) :
    after opsB V (Proc.devRef .tc main_arg1) = V (Proc.devRef .tc main_arg1) := by
  after_results_pairs <;> rfl

set_option maxHeartbeats 8000000 in
theorem stageB_arg5 (V : Valuation τ sig (Elt F)) :
    after opsB V (Proc.devRef .tc main_arg5) = V (Proc.devRef .tc main_arg5) := by
  after_results_pairs <;> rfl

set_option maxHeartbeats 8000000 in
theorem stageC_v94 (V : Valuation τ sig (Elt F)) :
    (after opsC V (Proc.devRef .tc main_v94) : (⟨S100000x40, .f32⟩ : BufTy).Contents (Elt F))
      = layer2 (V (Proc.devRef .tc main_v48)) (V (Proc.devRef .tc main_arg1)) (V (Proc.devRef .tc main_arg5)) := by
  unfold layer2
  after_results_pairs <;> rfl

set_option maxHeartbeats 8000000 in
theorem stageD_v95 (V : Valuation τ sig (Elt F)) :
    (after opsD V (Proc.devRef .tc main_v95) : (⟨S100000x40, .f32⟩ : BufTy).Contents (Elt F))
      = head (V (Proc.devRef .tc main_v94)) := by
  unfold head
  after_results_pairs
  simp only [Cert.HostFold.ofBuf_toBuf]
  rfl

/-- THE RESULT BUFFER after the whole line: the four named functions composed, of the contents the line starts from. -/
theorem after_ops_v95 (V : Valuation τ sig (Elt F)) :
    (after ops V (Proc.devRef .tc main_v95) : (⟨S100000x40, .f32⟩ : BufTy).Contents (Elt F))
      = head (layer2 (hidden (layer1 (Host.dotGeneral dot_S100000x512_S512x16_S100000x16_1_0_0_1_n_n none (V (Proc.devRef .tc main_arg0)) (V (Proc.devRef .tc main_arg2))) (V (Proc.devRef .tc main_arg1)) (V (Proc.devRef .tc main_arg3))) (V (Proc.devRef .tc main_arg4))) (V (Proc.devRef .tc main_arg1)) (V (Proc.devRef .tc main_arg5))) := by
  rw [ops_split, Cert.HostFold.after_append, Cert.HostFold.after_append, Cert.HostFold.after_append]
  rw [stageD_v95, stageC_v94, stageB_v48, stageB_arg1, stageB_arg5, stageA_v46, stageA_arg1, stageA_arg4, stageA_arg5]

set_option maxRecDepth 8192 in
set_option maxHeartbeats 55200000 in
/-- On every device, from any memory with zero counters: every weakly fair execution of @main terminates with the
    result at the composition of the named functions of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = head (layer2 (hidden (layer1 (Host.dotGeneral dot_S100000x512_S512x16_S100000x16_1_0_0_1_n_n none (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4))) (m ((c.tc : Thread nD τ).loc main_arg1)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans ((after_ops_v95 _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Layers

end
-- ==== Proof.lean ====
/-
  The claim: the kernel and its idealization run and leave their arguments alone, the reference does too, the
  idealization is the kernel's own text read over the extended reals (nothing was rewritten), and the idealized kernel
  and the idealized reference end with equal results.

  Both programs compute `log_softmax (A (relu (A (x · W1) + b1) · W2) + b2)` for a two-layer graph network, `A` the
  normalised aggregation over the edge list extended by self-loops. The kernel computes the two products and the
  log-softmax in three tiled launches and the aggregations on the host between them; the reference computes everything
  on the host, with the same lines for the aggregations. A product is the same sum term by term however its rows are
  tiled, the rectifier and the log-softmax act row by row, and a change of float format is the identity on extended
  reals, so the two results are one function of the arguments; no argument is asked to be finite.
-/
import proofs.«132463_j11776800326010_1_alg».proof.Defs
import proofs.«132463_j11776800326010_1_alg».proof.Proof.Gen.Kernel
import proofs.«132463_j11776800326010_1_alg».proof.Proof.Gen.Kernel.Skeleton
import proofs.«132463_j11776800326010_1_alg».proof.Proof.Gen.Kernel.Launch
import proofs.«132463_j11776800326010_1_alg».proof.Proof.Gen.Kernel.Points
import proofs.«132463_j11776800326010_1_alg».proof.Proof.Gen.Kernel.Frame
import proofs.«132463_j11776800326010_1_alg».proof.Proof.Gen.KernelIdeal
import proofs.«132463_j11776800326010_1_alg».proof.Proof.Gen.KernelIdeal.Skeleton
import proofs.«132463_j11776800326010_1_alg».proof.Proof.Gen.KernelIdeal.Launch
import proofs.«132463_j11776800326010_1_alg».proof.Proof.Gen.KernelIdeal.Points
import proofs.«132463_j11776800326010_1_alg».proof.Proof.Gen.KernelIdeal.Frame
import proofs.«132463_j11776800326010_1_alg».proof.Proof.Gen.ReferenceIdeal
import proofs.«132463_j11776800326010_1_alg».proof.Proof.Gen.Pre_finite_inputs
import proofs.«132463_j11776800326010_1_alg».proof.Proof.Bridge
import proofs.«132463_j11776800326010_1_alg».proof.Proof.RefStages
import Idealize.ShloMosaic.Adequacy
import Idealize.ShloMosaic.Init

noncomputable section

namespace Cert.Proof

open Idealize.ShloMosaic Idealize.SL.Sem Cert.Kernel

/-- The reference's frame: its run, with the result dropped. -/
theorem frame_ri : Cert.frame_ReferenceIdeal := fun m ρ _ =>
  (θ_run Cert.ReferenceIdeal.defs _ _).mono (fun _ h c => (h c).2) (Cert.ReferenceIdeal.Layers.run (F := Ideal) m ρ)

/-- The kernel's run ends at the network function of its arguments, the reference's at the same function of arguments
    that agree with them. -/
theorem algebraic : Cert.algebraic_KernelIdeal_ReferenceIdeal := by
  intro m ρ m' ρ' _ hagree
  refine ⟨_, Cert.KernelIdeal.RunValue.run m ρ, ?_⟩
  have hR := Cert.ReferenceIdeal.Layers.run (F := Ideal) m' ρ'
  refine (θ_run Cert.ReferenceIdeal.defs _ _).mono (fun r h c => ?_) hR
  obtain ⟨h1, h2⟩ := h c
  obtain ⟨a0, a1, a2, a3, a4, a5⟩ := hagree c
  refine ⟨h1.trans ((Cert.Bridge.ref_net_eq _ _ _ _ _ _).trans ?_), h2⟩
  rw [a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
